-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x8192 : Shape := ⟨2, ![1024, 8192]⟩
abbrev S8192 : Shape := ⟨1, ![8192]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S4096x1024 .f32) (main_arg1 : FVec F S1024x8192 .f32) (main_arg2 : FVec F S8192 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S4096x1024 : Shape := ⟨2, ![4096, 1024]⟩
abbrev S1024x8192 : Shape := ⟨2, ![1024, 8192]⟩
abbrev S8192 : Shape := ⟨1, ![8192]⟩
abbrev S1x8192 : Shape := ⟨2, ![1, 8192]⟩
abbrev S4096x8192 : Shape := ⟨2, ![4096, 8192]⟩
abbrev S1024x512 : Shape := ⟨2, ![1024, 512]⟩
abbrev S1x512 : Shape := ⟨2, ![1, 512]⟩
abbrev S4096x512 : Shape := ⟨2, ![4096, 512]⟩
abbrev S4096x128x8x8 : Shape := ⟨4, ![4096, 128, 8, 8]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x8192, .f32⟩
  | .hbm, ⟨2, _⟩ => ⟨S8192, .f32⟩
  | .hbm, ⟨3, _⟩ => ⟨S1x8192, .f32⟩
  | .hbm, ⟨4, _⟩ => ⟨S4096x8192, .f32⟩
  | .hbm, ⟨5, _⟩ => ⟨S4096x128x8x8, .f32⟩
  | .local _ .vmem, ⟨0, _⟩ => ⟨S4096x1024, .f32⟩
  | .local _ .vmem, ⟨1, _⟩ => ⟨S1024x512, .f32⟩
  | .local _ .vmem, ⟨2, _⟩ => ⟨S1024x512, .f32⟩
  | .local _ .vmem, ⟨3, _⟩ => ⟨S1x512, .f32⟩
  | .local _ .vmem, ⟨4, _⟩ => ⟨S1x512, .f32⟩
  | .local _ .vmem, ⟨5, _⟩ => ⟨S4096x512, .f32⟩
  | .local _ .vmem, ⟨6, _⟩ => ⟨S4096x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8192_S1x8192 : S8192.ShapeCasts S1x8192
  inb_S4096x1024_S4096x1024_0_0 : ∀ a, (![0, 0] : Fin 2 → Nat) a + S4096x1024.size a ≤ S4096x1024.size a
  h_S4096x1024 : 0 < S4096x1024.numel
  inb_S1024x512_S1024x512_0_0 : ∀ a, (![0, 0] : Fin 2 → Nat) a + S1024x512.size a ≤ S1024x512.size a
  h_S1024x512 : 0 < S1024x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4096x512 : S1x512.Broadcasts S4096x512
  inb_S4096x512_S4096x512_0_0 : ∀ a, (![0, 0] : Fin 2 → Nat) a + S4096x512.size a ≤ S4096x512.size a
  h_S4096x512 : 0 < S4096x512.numel
  shapeCasts_S4096x8192_S4096x128x8x8 : S4096x8192.ShapeCasts S4096x128x8x8
  dot_S4096x1024_S1024x512_S4096x512_1_0_0_1_n_n_wf : DotDims.WF S4096x1024 S1024x512 S4096x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x1024.size a ≤ S4096x1024.size a
  hwx0_0 : ∀ i : grid0.Coords, EltTy.bits .f32 = 32 ∨ (Rect.block (s := S4096x1024) S4096x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x8192.size a
  hwx0_1 : ∀ i : grid0.Coords, EltTy.bits .f32 = 32 ∨ (Rect.block (s := S1024x8192) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x8192.size a
  hwx0_2 : ∀ i : grid0.Coords, EltTy.bits .f32 = 32 ∨ (Rect.block (s := S1x8192) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x512.size a ≤ S4096x8192.size a
  hwx0_3 : ∀ i : grid0.Coords, EltTy.bits .f32 = 32 ∨ (Rect.block (s := S4096x8192) S4096x512.size (cc0_transform_3 i) (hinb0_3 i)).WholeWords (EltTy.packing .f32)

variable [Facts₀]

def dot_S4096x1024_S1024x512_S4096x512_1_0_0_1_n_n : DotDims S4096x1024 S1024x512 S4096x512 where
  lhsContracting := [1]
  rhsContracting := [0]
  lhsNonContracting := [0]
  rhsNonContracting := [1]
  lhsBatch := []
  rhsBatch := []
  wf := dot_S4096x1024_S1024x512_S4096x512_1_0_0_1_n_n_wf

abbrev win0_0 : Pipeline.Window sig grid0 :=
  Pipeline.Window.ofSpec (Memref.whole main_arg0) S4096x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x8192 : Shape := ⟨2, ![1024, 8192]⟩
abbrev S8192 : Shape := ⟨1, ![8192]⟩
abbrev S1x8192 : Shape := ⟨2, ![1, 8192]⟩
abbrev S4096x8192 : Shape := ⟨2, ![4096, 8192]⟩
abbrev S256x1024 : Shape := ⟨2, ![256, 1024]⟩
abbrev S1024x512 : Shape := ⟨2, ![1024, 512]⟩
abbrev S1x512 : Shape := ⟨2, ![1, 512]⟩
abbrev S256x512 : Shape := ⟨2, ![256, 512]⟩
abbrev S4096x128x8x8 : Shape := ⟨4, ![4096, 128, 8, 8]⟩

abbrev nBuf : Space → Nat
  | .hbm => 6
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x8192, .f32⟩
  | .hbm, ⟨2, _⟩ => ⟨S8192, .f32⟩
  | .hbm, ⟨3, _⟩ => ⟨S1x8192, .f32⟩
  | .hbm, ⟨4, _⟩ => ⟨S4096x8192, .f32⟩
  | .hbm, ⟨5, _⟩ => ⟨S4096x128x8x8, .f32⟩
  | .local _ .vmem, ⟨0, _⟩ => ⟨S256x1024, .f32⟩
  | .local _ .vmem, ⟨1, _⟩ => ⟨S256x1024, .f32⟩
  | .local _ .vmem, ⟨2, _⟩ => ⟨S1024x512, .f32⟩
  | .local _ .vmem, ⟨3, _⟩ => ⟨S1024x512, .f32⟩
  | .local _ .vmem, ⟨4, _⟩ => ⟨S1x512, .f32⟩
  | .local _ .vmem, ⟨5, _⟩ => ⟨S1x512, .f32⟩
  | .local _ .vmem, ⟨6, _⟩ => ⟨S256x512, .f32⟩
  | .local _ .vmem, ⟨7, _⟩ => ⟨S256x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S8192_S1x8192 : S8192.ShapeCasts S1x8192
  inb_S256x1024_S256x1024_0_0 : ∀ a, (![0, 0] : Fin 2 → Nat) a + S256x1024.size a ≤ S256x1024.size a
  h_S256x1024 : 0 < S256x1024.numel
  inb_S1024x512_S1024x512_0_0 : ∀ a, (![0, 0] : Fin 2 → Nat) a + S1024x512.size a ≤ S1024x512.size a
  h_S1024x512 : 0 < S1024x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S256x512_S256x512_0_0 : ∀ a, (![0, 0] : Fin 2 → Nat) a + S256x512.size a ≤ S256x512.size a
  h_S256x512 : 0 < S256x512.numel
  shapeCasts_S4096x8192_S4096x128x8x8 : S4096x8192.ShapeCasts S4096x128x8x8
  dot_S256x1024_S1024x512_S256x512_1_0_0_1_n_n_wf : DotDims.WF S256x1024 S1024x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x8192.size a
  hwx0_1 : ∀ i : grid0.Coords, EltTy.bits .f32 = 32 ∨ (Rect.block (s := S1024x8192) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x8192.size a
  hwx0_2 : ∀ i : grid0.Coords, EltTy.bits .f32 = 32 ∨ (Rect.block (s := S1x8192) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S4096x8192.size a
  hwx0_3 : ∀ i : grid0.Coords, EltTy.bits .f32 = 32 ∨ (Rect.block (s := S4096x8192) S256x512.size (cc0_transform_3 i) (hinb0_3 i)).WholeWords (EltTy.packing .f32)

variable [Facts₀]

def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.LibPlainDot.lean ====
/-
  A plain matrix product `[a, k] × [k, b] → [a, b]` read at an entry.

  The kernel's matrix unit (into the zero accumulator) and the host's `dot_general` are both, on the extended reals, the
  sum over the dimension record's contraction index of the operands' products.  When the record contracts the left
  operand's second axis with the right operand's first — stated here as four facts about the record's operand
  indices, which each use proves by evaluating its record — that sum re-indexes to `Σ j, lhs (p, j) · rhs (j, c)`.
-/
import Idealize.ShloMosaic.Lib.ValueIdx
import Idealize.ShloMosaic.PureOps.Ideal.Laws

noncomputable section

namespace Idealize.ShloMosaic.PlainDot

open Idealize.ShloMosaic Idealize.ShloMosaic.ValueIdx

variable {a k b : ℕ} {φ₁ φ₂ : FTy}

/-- The contraction sum of a plain product at entry `(p, c)`, re-indexed by the contracted coordinate. -/
theorem sum_eq (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    ∑ q : D.contr.Idx, lhs (D.lhsIdx (ix2 p c) q) * rhs (D.rhsIdx (ix2 p c) q)
      = ∑ j : Fin k, lhs (ix2 p j) * rhs (ix2 j c) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 j c := funext fun ax => Fin.ext (by
    match ax with
    | ⟨0, _⟩ => exact (hr0 _ _).trans hk
    | ⟨1, _⟩ => exact hr1 _ _)
  rw [el, er]

/-- The matrix unit into the zero accumulator, at entry `(p, c)`. -/
theorem matmul_zero_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    matmul D prec lhs rhs (constant (F := Ideal) ⟨2, ![a, b]⟩ .f32 0x00000000#32) (ix2 p c)
      = ∑ j : Fin k, lhs (ix2 p j) * rhs (ix2 j c) :=
  (Ideal.matmul_constant_zero_apply D prec lhs rhs (ix2 p c)).trans (sum_eq D hr hs hl0 hl1 hr0 hr1 lhs rhs p c)

/-- The host's `dot_general`, at entry `(p, c)`. -/
theorem dotGeneral_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    Host.dotGeneral D prec lhs rhs (ix2 p c) = ∑ j : Fin k, lhs (ix2 p j) * rhs (ix2 j c) :=
  (Ideal.dotGeneral_apply D prec .single lhs rhs (ix2 p c)).trans (sum_eq D hr hs hl0 hl1 hr0 hr1 lhs rhs p c)

end Idealize.ShloMosaic.PlainDot

end
-- ==== Proof.LibRowBroadcast.lean ====
/-
  A row vector `[1, b]` broadcast down the rows of an `[a, b]` array, and a flat `[b]` vector laid as a row and
  broadcast the same way, read at an entry: entry `(p, q)` of the result is entry `q` of the row.
-/
import Idealize.ShloMosaic.Lib.ValueIdx
import Idealize.ShloMosaic.Lib.Pipeline.Value

noncomputable section

namespace Idealize.ShloMosaic.RowBroadcast

open Idealize.ShloMosaic Idealize.ShloMosaic.ValueIdx

variable {a b : ℕ} {α : Type}

/-- The kernel-side broadcast of a `[1, b]` row to `[a, b]`: entry `(p, q)` is the row's entry `(0, q)`. -/
theorem broadcastTo_row_apply (x : (⟨2, ![1, b]⟩ : Shape).Idx → α)
    (h : (⟨2, ![1, b]⟩ : Shape).Broadcasts ⟨2, ![a, b]⟩) (p : Fin a) (q : Fin b) :
    broadcastTo ⟨2, ![a, b]⟩ x h (ix2 p q) = x (ix2 (0 : Fin 1) q) := by
  refine broadcastTo_apply x h (ix2 p q) (ix2 (0 : Fin 1) q) fun ax => ?_
  match ax with
  | ⟨0, _⟩ => simp
  | ⟨1, _⟩ =>
    by_cases hb : b = 1
    · subst hb
      have : q.val = 0 := by omega
      simp [this]
    · split
      · rename_i h1; exact absurd h1 hb
      · rfl

/-- The host-side broadcast of a `[1, b]` row to `[a, b]` along both axes: entry `(p, q)` is the row's `(0, q)`. -/
theorem broadcastInDim_row_apply (dims : Fin 2 → Fin 2) (hd0 : dims 0 = 0) (hd1 : dims 1 = 1)
    (h : (⟨2, ![1, b]⟩ : Shape).BroadcastsInDim ⟨2, ![a, b]⟩ dims)
    (x : (⟨2, ![1, b]⟩ : Shape).Idx → α) (p : Fin a) (q : Fin b) :
    broadcastInDim ⟨2, ![a, b]⟩ dims h x (ix2 p q) = x (ix2 (0 : Fin 1) q) := by
  refine broadcastInDim_apply dims h x (ix2 p q) (ix2 (0 : Fin 1) q) fun ax => ?_
  match ax with
  | ⟨0, _⟩ => simp
  | ⟨1, _⟩ =>
    by_cases hb : b = 1
    · subst hb
      have : q.val = 0 := by omega
      simp [this]
    · split
      · rename_i h1; exact absurd h1 hb
      · show q.val = ((ix2 p q : (⟨2, ![a, b]⟩ : Shape).Idx) (dims 1)).val
        rw [hd1]

/-- The host-side lay-out of a flat `[b]` vector as a `[1, b]` row (its one axis sent to axis 1): entry `(0, q)` is
    the vector's entry `q`. -/
theorem broadcastInDim_flat_apply (dims : Fin 1 → Fin 2) (hd : dims 0 = 1)
    (h : (⟨1, ![b]⟩ : Shape).BroadcastsInDim ⟨2, ![1, b]⟩ dims)
    (x : (⟨1, ![b]⟩ : Shape).Idx → α) (z : Fin 1) (q : Fin b) :
    broadcastInDim ⟨2, ![1, b]⟩ dims h x (ix2 z q) = x (ix1 q) := by
  refine broadcastInDim_apply dims h x (ix2 z q) (ix1 q) fun ax => ?_
  match ax with
  | ⟨0, _⟩ =>
    by_cases hb : b = 1
    · subst hb
      have : q.val = 0 := by omega
      simp [this]
    · split
      · rename_i h1; exact absurd h1 hb
      · show q.val = ((ix2 z q : (⟨2, ![1, b]⟩ : Shape).Idx) (dims 0)).val
        rw [hd]

/-- A `[b]` vector reshaped to a `[1, b]` row: entry `(0, q)` is the vector's entry `q`. -/
theorem shapeCast_flat_apply (x : (⟨1, ![b]⟩ : Shape).Idx → α)
    (h : (⟨1, ![b]⟩ : Shape).ShapeCasts ⟨2, ![1, b]⟩) (z : Fin 1) (q : Fin b) :
    shapeCast ⟨2, ![1, b]⟩ x h (ix2 z q) = x (ix1 q) := by
  refine shapeCast_apply x h (ix2 z q) (ix1 q) ?_
  have hz : z.val = 0 := by omega
  rw [Shape.rowMajor_val_one, Shape.rowMajor_val_two]
  show q.val = z.val * _ + q.val
  rw [hz, Nat.zero_mul, Nat.zero_add]

end Idealize.ShloMosaic.RowBroadcast

end
-- ==== Proof.ExpandSpec.lean ====
/-
  The layer both programs compute, as ONE function of the three argument arrays.

  With x of shape [4096, 1024], W of shape [1024, 8192] and b of shape [8192], entry (p, c) of the flat result is
      (Σ_j x(p, j) · W(j, c)) + b(c),
  the sum over all 1024 values of j taken in one piece: neither program splits the contraction, so the two sides are
  this same extended-real expression term for term and no law of arithmetic is needed to join them (in particular
  nothing here asks the inputs to be finite).  The result handed back is this [4096, 8192] array re-read in
  row-major order at shape [4096, 128, 8, 8].
-/
import Idealize.ShloMosaic.Lib.ValueIdx
import Idealize.ShloMosaic.PureOps.Ideal

noncomputable section

namespace Cert.Expand

open Idealize.ShloMosaic Idealize.ShloMosaic.ValueIdx

/-- Entry (p, c) of x·W + b: row p of x against column c of W, all 1024 products summed, plus entry c of b. -/
def affine (x : FVec Ideal ⟨2, ![4096, 1024]⟩ .f32) (w : FVec Ideal ⟨2, ![1024, 8192]⟩ .f32)
    (b : FVec Ideal ⟨1, ![8192]⟩ .f32) : FVec Ideal ⟨2, ![4096, 8192]⟩ .f32 :=
  fun i => (∑ j : Fin 1024, x (ix2 (i 0 : Fin 4096) j) * w (ix2 j (i 1 : Fin 8192))) + b (ix1 (i 1 : Fin 8192))

/-- The same, at an index given by its two coordinates. -/
theorem affine_apply (x : FVec Ideal ⟨2, ![4096, 1024]⟩ .f32) (w : FVec Ideal ⟨2, ![1024, 8192]⟩ .f32)
    (b : FVec Ideal ⟨1, ![8192]⟩ .f32) (p : Fin 4096) (c : Fin 8192) :
    affine x w b (ix2 p c) = (∑ j : Fin 1024, x (ix2 p j) * w (ix2 j c)) + b (ix1 c) := rfl

end Cert.Expand

end
-- ==== Proof.KernelTile.lean ====
/-
  One grid point of the kernel: what the body stores, entry by entry.

  The body loads a block of x (4096 rows, all 1024 columns), a block of W (all 1024 rows, 512 columns) and a block of
  the bias row (1 row, 512 columns), multiplies the first two on the matrix unit into a zero accumulator, adds the bias
  row to every row of the product, and stores the [4096, 512] result.  On the extended reals entry (p, q) of that
  result is therefore (Σ_j xblk(p, j) · wblk(j, q)) + bblk(0, q): the matrix unit started at zero is the plain sum of
  the 1024 products, the re-cast of the bias row to its own shape changes nothing, and the broadcast copies the row's
  entry q down column q.
-/
import proofs.«179654_g2000606531423480_pallasbulk_506_2_alg».proof.Proof.Gen.KernelIdeal.Frame
import proofs.«179654_g2000606531423480_pallasbulk_506_2_alg».proof.Proof.LibPlainDot
import proofs.«179654_g2000606531423480_pallasbulk_506_2_alg».proof.Proof.LibRowBroadcast
import proofs.«179654_g2000606531423480_pallasbulk_506_2_alg».proof.Proof.ExpandSpec
import Idealize.ShloMosaic.Lib.Pipeline.Value

noncomputable section

namespace Cert.KernelIdeal.Tile

open Idealize.ShloMosaic Idealize.ShloMosaic.ValueIdx Cert.KernelIdeal Cert.KernelIdeal.Gen

/-- The matrix unit's dimension record: [4096, 1024] × [1024, 512] → [4096, 512]. -/
abbrev D := dot_S4096x1024_S1024x512_S4096x512_1_0_0_1_n_n

/-- It contracts one axis, -/
theorem contr_rank : D.contr.rank = 1 := rfl
/-- of extent 1024; -/
theorem contr_size : D.contr.size ⟨0, by rw [contr_rank]; omega⟩ = 1024 := rfl
/-- the left operand is read at the result's row -/
theorem lhs_row (i : S4096x512.Idx) (k : D.contr.Idx) : (D.lhsIdx i k 0).val = (i 0).val := by
  simp [DotDims.lhsIdx, D, dot_S4096x1024_S1024x512_S4096x512_1_0_0_1_n_n]
  rfl
/-- and at the contracted position; -/
theorem lhs_col (i : S4096x512.Idx) (k : D.contr.Idx) :
    (D.lhsIdx i k 1).val = (k ⟨0, by rw [contr_rank]; omega⟩).val :=
  D.lhsIdx_val_of_single (cl := 1) rfl i k
/-- the right operand at the contracted position -/
theorem rhs_row (i : S4096x512.Idx) (k : D.contr.Idx) :
    (D.rhsIdx i k 0).val = (k ⟨0, by rw [contr_rank]; omega⟩).val :=
  D.rhsIdx_val_of_single (cr := 0) rfl i k
/-- and at the result's column. -/
theorem rhs_col (i : S4096x512.Idx) (k : D.contr.Idx) : (D.rhsIdx i k 1).val = (i 1).val := by
  simp [DotDims.rhsIdx, D, dot_S4096x1024_S1024x512_S4096x512_1_0_0_1_n_n]
  rfl

/-- Entry (p, q) of what the body stores, from the three loaded blocks. -/
theorem stored_apply (x0 : Vec Ideal S4096x1024 .f32) (x1 : Vec Ideal S1024x512 .f32) (x2 : Vec Ideal S1x512 .f32)
    (p : Fin 4096) (q : Fin 512) :
    k0_pay1 (F := Ideal) x0 x1 x2 (ix2 p q)
      = (∑ j : Fin 1024, x0 (ix2 p j) * x1 (ix2 j q)) + x2 (ix2 (0 : Fin 1) q) := by
  unfold k0_pay1
  rw [addf_apply, PlainDot.matmul_zero_apply D none contr_rank contr_size lhs_row lhs_col rhs_row rhs_col x0 x1 p q,
    RowBroadcast.broadcastTo_row_apply, shapeCast_self]

/-- When the three blocks are the pieces of x, W and b that belong to output entry (r, s) — row r of x, column s of W,
    entry s of b — the stored entry (p, q) is entry (r, s) of x·W + b. -/
theorem stored_eq_affine (X : FVec Ideal ⟨2, ![4096, 1024]⟩ .f32) (W : FVec Ideal ⟨2, ![1024, 8192]⟩ .f32)
    (B : FVec Ideal ⟨1, ![8192]⟩ .f32)
    (x0 : Vec Ideal S4096x1024 .f32) (x1 : Vec Ideal S1024x512 .f32) (x2 : Vec Ideal S1x512 .f32)
    (p : Fin 4096) (q : Fin 512) (r : Fin 4096) (s : Fin 8192)
    (hx : ∀ j : Fin 1024, x0 (ix2 p j) = X (ix2 r j))
    (hw : ∀ j : Fin 1024, x1 (ix2 j q) = W (ix2 j s))
    (hb : x2 (ix2 (0 : Fin 1) q) = B (ix1 s)) :
    k0_pay1 (F := Ideal) x0 x1 x2 (ix2 p q) = Cert.Expand.affine X W B (ix2 r s) := by
  rw [stored_apply, Cert.Expand.affine_apply, hb]
  exact congrArg (· + B (ix1 s)) (Finset.sum_congr rfl fun j _ => by rw [hx j, hw j])

end Cert.KernelIdeal.Tile

end
-- ==== Proof.KernelWhole.lean ====
/-
  The kernel's whole run, read as a value.

  The grid has 16 points.  At point t the body sees all of x, columns 512·t … 512·t + 511 of W and the same columns of
  the bias row, and what it stores is written back as columns 512·t … 512·t + 511 of the flat [4096, 8192] result.  So
  the block a point writes back is that block of x·W + b; the 16 column blocks tile the array (column s lies in the
  block of point s / 512); hence the flat array ends as x·W + b, and the result proper is its row-major re-reading at
  shape [4096, 128, 8, 8].  The bias row the region sees is the flat bias laid out as one row by the line before it.
-/
import proofs.«179654_g2000606531423480_pallasbulk_506_2_alg».proof.Proof.KernelTile

set_option maxRecDepth 16384

noncomputable section

namespace Cert.KernelIdeal.Whole

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- The flat result as a function of the three argument arrays of core `c`. -/
abbrev flat (c : Dev nD) : FVec Ideal S4096x8192 .f32 :=
  Cert.Expand.affine (m ((c : Thread nD τ).loc main_arg0)) (m ((c : Thread nD τ).loc main_arg1))
    (m ((c : Thread nD τ).loc main_arg2))

theorem zeros : (![0, 0] : Fin 2 → Nat) = fun _ => 0 := funext fun a => by fin_cases a <;> rfl

/-- The bias row as the region finds it: entry (0, s) is entry s of the flat bias. -/
theorem bias_row (c : Dev nD) (z : Fin 1) (s : Fin 8192) :
    V m c main_v0 (ix2 z s) = m ((c : Thread nD τ).loc main_arg2) (ix1 s) := by
  have e : (V m c main_v0 : S1x8192.Idx → EReal)
      = shapeCast S1x8192 (m ((c : Thread nD τ).loc main_arg2)) shapeCasts_S8192_S1x8192 := by
    show StableHlo.after hostOps0 (fun b => m (c, b)) (Proc.devRef .tc main_v0) = _
    after_results
    rfl
  rw [e, RowBroadcast.shapeCast_flat_apply]

/-- Where each window's block sits at point `t`: x's block is all of x, and W's, the bias row's and the result's
    blocks are the `t`-th column blocks. -/
theorem block_places : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val ∧ t.val < 16 :=
  (by decide +kernel : ∀ t : Fin grid0.N, _)

/-- WHAT POINT `t` WRITES BACK is block `t` of x·W + b. -/
theorem written_back (c : Dev nD) (t : Fin cfg0.N) :
    (dats m 0 c).flushed 3 t = ((cfg0.win 3).blk t).view.read (Elt Ideal) (flat m c) := by
  show (cfg0.win 3).cut (grid0.coords t) ((dats m 0 c).after 3 t) = _
  rw [after0_3]
  unfold out0_3
  rw [View.canon_unit_zero zeros]
  simp only [View.ld_unit_zero (S := S4096x1024) zeros, View.ld_unit_zero (S := S1024x512) zeros,
    View.ld_unit_zero (S := S1x512) zeros]
  obtain ⟨a0, a1, b0, b1, c0, c1, d0, d1, ht⟩ := block_places t
  refine funext fun (y : S4096x512.Idx) => ?_
  obtain ⟨p, q, rfl⟩ : ∃ (p : Fin 4096) (q : Fin 512), y = ix2 p q := ⟨y 0, y 1, eq_ix2 y⟩
  have hs : t.val * 512 + q.val < 8192 := by have := q.isLt; omega
  have eo : ((cfg0.win 3).blk t).view.emb (ix2 p q) = ix2 p (⟨t.val * 512 + q.val, hs⟩ : Fin 8192) := by
    funext a; apply Fin.ext
    match a with
    | ⟨0, _⟩ => show win0_3.index t (0 : Fin 2) * 4096 + 1 * p.val = p.val; omega
    | ⟨1, _⟩ => show win0_3.index t (1 : Fin 2) * 512 + 1 * q.val = t.val * 512 + q.val; omega
  show k0_pay1 (F := Ideal) (iblk m c 0 t) (iblk m c 1 t) (iblk m c 2 t) (ix2 p q)
    = flat m c (((cfg0.win 3).blk t).view.emb (ix2 p q))
  rw [eo]
  refine Tile.stored_eq_affine _ _ _ (iblk m c 0 t) (iblk m c 1 t) (iblk m c 2 t) p q p ⟨t.val * 512 + q.val, hs⟩
    (fun j => ?_) (fun j => ?_) ?_
  · show V m c main_arg0 (((cfg0.win 0).blk t).view.emb (ix2 p j)) = _
    rw [V_main_arg0]
    refine congrArg _ (funext fun a => Fin.ext ?_)
    match a with
    | ⟨0, _⟩ => show win0_0.index t (0 : Fin 2) * 4096 + 1 * p.val = p.val; omega
    | ⟨1, _⟩ => show win0_0.index t (1 : Fin 2) * 1024 + 1 * j.val = j.val; omega
  · show V m c main_arg1 (((cfg0.win 1).blk t).view.emb (ix2 j q)) = _
    rw [V_main_arg1]
    refine congrArg _ (funext fun a => Fin.ext ?_)
    match a with
    | ⟨0, _⟩ => show win0_1.index t (0 : Fin 2) * 1024 + 1 * j.val = j.val; omega
    | ⟨1, _⟩ => show win0_1.index t (1 : Fin 2) * 512 + 1 * q.val = t.val * 512 + q.val; omega
  · show V m c main_v0 (((cfg0.win 2).blk t).view.emb (ix2 (0 : Fin 1) q)) = _
    have e2 : ((cfg0.win 2).blk t).view.emb (ix2 (0 : Fin 1) q)
        = ix2 (0 : Fin 1) (⟨t.val * 512 + q.val, hs⟩ : Fin 8192) := by
      funext a; apply Fin.ext
      match a with
      | ⟨0, _⟩ => show win0_2.index t (0 : Fin 2) * 1 + 1 * 0 = 0; omega
      | ⟨1, _⟩ => show win0_2.index t (1 : Fin 2) * 512 + 1 * q.val = t.val * 512 + q.val; omega
    rw [e2, bias_row]

/-- An index of the flat result is in point `t`'s block iff each coordinate is in the block's range on its axis. -/
theorem in_block (t : Fin cfg0.N) (i : S4096x8192.Idx) :
    i ∈ ((cfg0.win 3).blk t).view.set ↔ ∀ a : Fin 2, win0_3.index t a * S4096x512.size a ≤ (i a).val
      ∧ (i a).val < win0_3.index t a * S4096x512.size a + S4096x512.size a := by
  show i ∈ ((View.whole main_v1).slice (win0_3.rect t)).set ↔ _
  rw [View.set_slice_whole, Rect.mem_set_unit]
  exact Iff.rfl

/-- The 16 column blocks tile the flat result: column s is in the block of point s / 512. -/
theorem tiled (i : S4096x8192.Idx) :
    ∃ t : Fin cfg0.N, (cfg0.win 3).flush t = true ∧ i ∈ ((cfg0.win 3).blk t).view.set := by
  have h0 : (i 0).val < 4096 := (i 0).isLt
  have h1 : (i 1).val < 8192 := (i 1).isLt
  let t : Fin cfg0.N := ⟨(i 1).val / 512, by show _ < grid0.N; rw [N_0]; omega⟩
  have tv : t.val = (i 1).val / 512 := rfl
  obtain ⟨-, -, -, -, -, -, d0, d1, -⟩ := block_places t
  refine ⟨t, flush0_3 t, ?_⟩
  rw [in_block]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 512 ≤ (i 1).val ∧ (i 1).val < win0_3.index t (1 : Fin 2) * 512 + 512; omega

/-- THE FLAT ARRAY after the region is x·W + b. -/
theorem flat_final (c : Dev nD) : (dats m 0 c).arrAt 3 cfg0.N = flat m c :=
  (dats m 0 c).arrAt_eq_of_cover 3 (flat m c) (fun t _ => written_back m c t) (tiled)

/-- THE RESULT after the line that follows the region: the flat array re-read at shape [4096, 128, 8, 8]. -/
theorem result_final (c : Dev nD) :
    Pipeline.afterTail₀ cfgs (dats m) 0 (V0 m) [hostOps1] c main_v2
      = shapeCast S4096x128x8x8 (flat m c) shapeCasts_S4096x8192_S4096x128x8x8 := by
  unfold Pipeline.afterTail₀
  show StableHlo.after hostOps1 _ (Proc.devRef .tc main_v2) = _
  after_results
  rw [(Pipeline.withArrays_arr spec0 launch0.win.arr_inj c _ _ 3).trans (flat_final m c)]
  rfl

/-- THE RUN: every weakly fair execution ends with the result at the re-read x·W + b and the arguments unchanged. -/
theorem run : θ_run defs (onTc (τ := τ) (main (F := Ideal))) ⟨m, fun _ => 0, ρ⟩ fun r => ∀ c : Dev nD,
      r.2.mem ((c.tc : Thread nD τ).loc main_v2) = shapeCast S4096x128x8x8 (flat m c) shapeCasts_S4096x8192_S4096x128x8x8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v2 (Pipeline.mem_restRefs_of main_v2 (by decide) (by decide))).trans (result_final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Whole

end
-- ==== Proof.ReferenceTile.lean ====
/-
  One grid point of the reference: what the body stores, entry by entry.

  The body loads a block of x (256 rows, all 1024 columns), a block of W (all 1024 rows, 512 columns) and a block of
  the bias row (1 row, 512 columns), multiplies the first two on the matrix unit into a zero accumulator, adds the bias
  row to every row of the product, and stores the [256, 512] result.  On the extended reals entry (p, q) of that
  result is therefore (Σ_j xblk(p, j) · wblk(j, q)) + bblk(0, q): the matrix unit started at zero is the plain sum of
  the 1024 products, the re-cast of the bias row to its own shape changes nothing, and the broadcast copies the row's
  entry q down column q.
-/
import proofs.«179654_g2000606531423480_pallasbulk_506_2_alg».proof.Proof.Gen.ReferenceIdeal.Frame
import proofs.«179654_g2000606531423480_pallasbulk_506_2_alg».proof.Proof.LibPlainDot
import proofs.«179654_g2000606531423480_pallasbulk_506_2_alg».proof.Proof.LibRowBroadcast
import proofs.«179654_g2000606531423480_pallasbulk_506_2_alg».proof.Proof.ExpandSpec
import Idealize.ShloMosaic.Lib.Pipeline.Value

noncomputable section

namespace Cert.ReferenceIdeal.Tile

open Idealize.ShloMosaic Idealize.ShloMosaic.ValueIdx Cert.ReferenceIdeal Cert.ReferenceIdeal.Gen

/-- The matrix unit's dimension record: [256, 1024] × [1024, 512] → [256, 512]. -/
abbrev D := dot_S256x1024_S1024x512_S256x512_1_0_0_1_n_n

/-- It contracts one axis, -/
theorem contr_rank : D.contr.rank = 1 := rfl
/-- of extent 1024; -/
theorem contr_size : D.contr.size ⟨0, by rw [contr_rank]; omega⟩ = 1024 := rfl
/-- the left operand is read at the result's row -/
theorem lhs_row (i : S256x512.Idx) (k : D.contr.Idx) : (D.lhsIdx i k 0).val = (i 0).val := by
  simp [DotDims.lhsIdx, D, dot_S256x1024_S1024x512_S256x512_1_0_0_1_n_n]
  rfl
/-- and at the contracted position; -/
theorem lhs_col (i : S256x512.Idx) (k : D.contr.Idx) :
    (D.lhsIdx i k 1).val = (k ⟨0, by rw [contr_rank]; omega⟩).val :=
  D.lhsIdx_val_of_single (cl := 1) rfl i k
/-- the right operand at the contracted position -/
theorem rhs_row (i : S256x512.Idx) (k : D.contr.Idx) :
    (D.rhsIdx i k 0).val = (k ⟨0, by rw [contr_rank]; omega⟩).val :=
  D.rhsIdx_val_of_single (cr := 0) rfl i k
/-- and at the result's column. -/
theorem rhs_col (i : S256x512.Idx) (k : D.contr.Idx) : (D.rhsIdx i k 1).val = (i 1).val := by
  simp [DotDims.rhsIdx, D, dot_S256x1024_S1024x512_S256x512_1_0_0_1_n_n]
  rfl

/-- Entry (p, q) of what the body stores, from the three loaded blocks. -/
theorem stored_apply (x0 : Vec Ideal S256x1024 .f32) (x1 : Vec Ideal S1024x512 .f32) (x2 : Vec Ideal S1x512 .f32)
    (p : Fin 256) (q : Fin 512) :
    k0_pay1 (F := Ideal) x0 x1 x2 (ix2 p q)
      = (∑ j : Fin 1024, x0 (ix2 p j) * x1 (ix2 j q)) + x2 (ix2 (0 : Fin 1) q) := by
  unfold k0_pay1
  rw [addf_apply, PlainDot.matmul_zero_apply D none contr_rank contr_size lhs_row lhs_col rhs_row rhs_col x0 x1 p q,
    RowBroadcast.broadcastTo_row_apply, shapeCast_self]

/-- When the three blocks are the pieces of x, W and b that belong to output entry (r, s) — row r of x, column s of W,
    entry s of b — the stored entry (p, q) is entry (r, s) of x·W + b. -/
theorem stored_eq_affine (X : FVec Ideal ⟨2, ![4096, 1024]⟩ .f32) (W : FVec Ideal ⟨2, ![1024, 8192]⟩ .f32)
    (B : FVec Ideal ⟨1, ![8192]⟩ .f32)
    (x0 : Vec Ideal S256x1024 .f32) (x1 : Vec Ideal S1024x512 .f32) (x2 : Vec Ideal S1x512 .f32)
    (p : Fin 256) (q : Fin 512) (r : Fin 4096) (s : Fin 8192)
    (hx : ∀ j : Fin 1024, x0 (ix2 p j) = X (ix2 r j))
    (hw : ∀ j : Fin 1024, x1 (ix2 j q) = W (ix2 j s))
    (hb : x2 (ix2 (0 : Fin 1) q) = B (ix1 s)) :
    k0_pay1 (F := Ideal) x0 x1 x2 (ix2 p q) = Cert.Expand.affine X W B (ix2 r s) := by
  rw [stored_apply, Cert.Expand.affine_apply, hb]
  exact congrArg (· + B (ix1 s)) (Finset.sum_congr rfl fun j _ => by rw [hx j, hw j])

end Cert.ReferenceIdeal.Tile

end
-- ==== Proof.ReferenceWhole.lean ====
/-
  The reference's whole run, read as a value.

  The grid has 16 × 16 = 256 points; point t works on row block t mod 16 (256 rows) and column block t div 16 (512
  columns).  There the body sees rows 256·(t mod 16) … of x, columns 512·(t div 16) … of W and the same columns of the
  bias row, and what it stores is written back as that [256, 512] block of the flat [4096, 8192] result.  So the block
  a point writes back is that block of x·W + b; the 256 blocks tile the array (entry (r, s) lies in the block of point
  16·(s / 512) + r / 256); hence the flat array ends as x·W + b, and the result proper is its row-major re-reading at
  shape [4096, 128, 8, 8].  The bias row the region sees is the flat bias laid out as one row by the line before it.
-/
import proofs.«179654_g2000606531423480_pallasbulk_506_2_alg».proof.Proof.ReferenceTile

set_option maxRecDepth 16384

noncomputable section

namespace Cert.ReferenceIdeal.Whole

open Idealize.ShloMosaic Idealize.ShloMosaic.TcCoe Idealize.ShloMosaic.ValueIdx
open Idealize.SL Idealize.SL.Sem
open Idealize.ShloMosaic.Pipeline (Dat Cfg Window)
open Cert.ReferenceIdeal Cert.ReferenceIdeal.Gen

variable (m : (ℓ : Loc nD τ sig) → Buf (Elt Ideal) ℓ) (ρ : Dev nD → PrngReg)

/-- The flat result as a function of the three argument arrays of core `c`. -/
abbrev flat (c : Dev nD) : FVec Ideal S4096x8192 .f32 :=
  Cert.Expand.affine (m ((c : Thread nD τ).loc main_arg0)) (m ((c : Thread nD τ).loc main_arg1))
    (m ((c : Thread nD τ).loc main_arg2))

theorem zeros : (![0, 0] : Fin 2 → Nat) = fun _ => 0 := funext fun a => by fin_cases a <;> rfl

/-- The bias row as the region finds it: entry (0, s) is entry s of the flat bias. -/
theorem bias_row (c : Dev nD) (z : Fin 1) (s : Fin 8192) :
    V m c main_v0 (ix2 z s) = m ((c : Thread nD τ).loc main_arg2) (ix1 s) := by
  have e : (V m c main_v0 : S1x8192.Idx → EReal)
      = shapeCast S1x8192 (m ((c : Thread nD τ).loc main_arg2)) shapeCasts_S8192_S1x8192 := by
    show StableHlo.after hostOps0 (fun b => m (c, b)) (Proc.devRef .tc main_v0) = _
    after_results
    rfl
  rw [e, RowBroadcast.shapeCast_flat_apply]

/-- Where each window's block sits at point `t`: x's block is row block t mod 16, W's and the bias row's blocks are
    column block t div 16, and the result's block is at that row block and that column block. -/
theorem block_places : ∀ t : Fin cfg0.N,
    win0_0.index t (0 : Fin 2) = t.val % 16 ∧ win0_0.index t (1 : Fin 2) = 0
    ∧ win0_1.index t (0 : Fin 2) = 0 ∧ win0_1.index t (1 : Fin 2) = t.val / 16
    ∧ win0_2.index t (0 : Fin 2) = 0 ∧ win0_2.index t (1 : Fin 2) = t.val / 16
    ∧ win0_3.index t (0 : Fin 2) = t.val % 16 ∧ win0_3.index t (1 : Fin 2) = t.val / 16 ∧ t.val < 256 :=
  (by decide +kernel : ∀ t : Fin grid0.N, _)

/-- WHAT POINT `t` WRITES BACK is block `t` of x·W + b. -/
theorem written_back (c : Dev nD) (t : Fin cfg0.N) :
    (dats m 0 c).flushed 3 t = ((cfg0.win 3).blk t).view.read (Elt Ideal) (flat m c) := by
  show (cfg0.win 3).cut (grid0.coords t) ((dats m 0 c).after 3 t) = _
  rw [after0_3]
  unfold out0_3
  rw [View.canon_unit_zero zeros]
  simp only [View.ld_unit_zero (S := S256x1024) zeros, View.ld_unit_zero (S := S1024x512) zeros,
    View.ld_unit_zero (S := S1x512) zeros]
  obtain ⟨a0, a1, b0, b1, c0, c1, d0, d1, ht⟩ := block_places t
  refine funext fun (y : S256x512.Idx) => ?_
  obtain ⟨p, q, rfl⟩ : ∃ (p : Fin 256) (q : Fin 512), y = ix2 p q := ⟨y 0, y 1, eq_ix2 y⟩
  have hr : t.val % 16 * 256 + p.val < 4096 := by have := p.isLt; omega
  have hs : t.val / 16 * 512 + q.val < 8192 := by have := q.isLt; omega
  have eo : ((cfg0.win 3).blk t).view.emb (ix2 p q)
      = ix2 (⟨t.val % 16 * 256 + p.val, hr⟩ : Fin 4096) (⟨t.val / 16 * 512 + q.val, hs⟩ : Fin 8192) := by
    funext a; apply Fin.ext
    match a with
    | ⟨0, _⟩ => show win0_3.index t (0 : Fin 2) * 256 + 1 * p.val = t.val % 16 * 256 + p.val; omega
    | ⟨1, _⟩ => show win0_3.index t (1 : Fin 2) * 512 + 1 * q.val = t.val / 16 * 512 + q.val; omega
  show k0_pay1 (F := Ideal) (iblk m c 0 t) (iblk m c 1 t) (iblk m c 2 t) (ix2 p q)
    = flat m c (((cfg0.win 3).blk t).view.emb (ix2 p q))
  rw [eo]
  refine Tile.stored_eq_affine _ _ _ (iblk m c 0 t) (iblk m c 1 t) (iblk m c 2 t) p q
    ⟨t.val % 16 * 256 + p.val, hr⟩ ⟨t.val / 16 * 512 + q.val, hs⟩ (fun j => ?_) (fun j => ?_) ?_
  · show V m c main_arg0 (((cfg0.win 0).blk t).view.emb (ix2 p j)) = _
    rw [V_main_arg0]
    refine congrArg _ (funext fun a => Fin.ext ?_)
    match a with
    | ⟨0, _⟩ => show win0_0.index t (0 : Fin 2) * 256 + 1 * p.val = t.val % 16 * 256 + p.val; omega
    | ⟨1, _⟩ => show win0_0.index t (1 : Fin 2) * 1024 + 1 * j.val = j.val; omega
  · show V m c main_arg1 (((cfg0.win 1).blk t).view.emb (ix2 j q)) = _
    rw [V_main_arg1]
    refine congrArg _ (funext fun a => Fin.ext ?_)
    match a with
    | ⟨0, _⟩ => show win0_1.index t (0 : Fin 2) * 1024 + 1 * j.val = j.val; omega
    | ⟨1, _⟩ => show win0_1.index t (1 : Fin 2) * 512 + 1 * q.val = t.val / 16 * 512 + q.val; omega
  · show V m c main_v0 (((cfg0.win 2).blk t).view.emb (ix2 (0 : Fin 1) q)) = _
    have e2 : ((cfg0.win 2).blk t).view.emb (ix2 (0 : Fin 1) q)
        = ix2 (0 : Fin 1) (⟨t.val / 16 * 512 + q.val, hs⟩ : Fin 8192) := by
      funext a; apply Fin.ext
      match a with
      | ⟨0, _⟩ => show win0_2.index t (0 : Fin 2) * 1 + 1 * 0 = 0; omega
      | ⟨1, _⟩ => show win0_2.index t (1 : Fin 2) * 512 + 1 * q.val = t.val / 16 * 512 + q.val; omega
    rw [e2, bias_row]

/-- An index of the flat result is in point `t`'s block iff each coordinate is in the block's range on its axis. -/
theorem in_block (t : Fin cfg0.N) (i : S4096x8192.Idx) :
    i ∈ ((cfg0.win 3).blk t).view.set ↔ ∀ a : Fin 2, win0_3.index t a * S256x512.size a ≤ (i a).val
      ∧ (i a).val < win0_3.index t a * S256x512.size a + S256x512.size a := by
  show i ∈ ((View.whole main_v1).slice (win0_3.rect t)).set ↔ _
  rw [View.set_slice_whole, Rect.mem_set_unit]
  exact Iff.rfl

/-- The 256 blocks tile the flat result: entry (r, s) is in the block of point 16·(s / 512) + r / 256. -/
theorem tiled (i : S4096x8192.Idx) :
    ∃ t : Fin cfg0.N, (cfg0.win 3).flush t = true ∧ i ∈ ((cfg0.win 3).blk t).view.set := by
  have h0 : (i 0).val < 4096 := (i 0).isLt
  have h1 : (i 1).val < 8192 := (i 1).isLt
  let t : Fin cfg0.N := ⟨(i 1).val / 512 * 16 + (i 0).val / 256, by show _ < grid0.N; rw [N_0]; omega⟩
  have tv : t.val = (i 1).val / 512 * 16 + (i 0).val / 256 := rfl
  obtain ⟨-, -, -, -, -, -, d0, d1, -⟩ := block_places t
  refine ⟨t, flush0_3 t, ?_⟩
  rw [in_block]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 512 ≤ (i 1).val ∧ (i 1).val < win0_3.index t (1 : Fin 2) * 512 + 512; omega

/-- THE FLAT ARRAY after the region is x·W + b. -/
theorem flat_final (c : Dev nD) : (dats m 0 c).arrAt 3 cfg0.N = flat m c :=
  (dats m 0 c).arrAt_eq_of_cover 3 (flat m c) (fun t _ => written_back m c t) (tiled)

/-- THE RESULT after the line that follows the region: the flat array re-read at shape [4096, 128, 8, 8]. -/
theorem result_final (c : Dev nD) :
    Pipeline.afterTail₀ cfgs (dats m) 0 (V0 m) [hostOps1] c main_v2
      = shapeCast S4096x128x8x8 (flat m c) shapeCasts_S4096x8192_S4096x128x8x8 := by
  unfold Pipeline.afterTail₀
  show StableHlo.after hostOps1 _ (Proc.devRef .tc main_v2) = _
  after_results
  rw [(Pipeline.withArrays_arr spec0 launch0.win.arr_inj c _ _ 3).trans (flat_final m c)]
  rfl

/-- THE RUN: every weakly fair execution ends with the result at the re-read x·W + b and the arguments unchanged. -/
theorem run : θ_run defs (onTc (τ := τ) (main (F := Ideal))) ⟨m, fun _ => 0, ρ⟩ fun r => ∀ c : Dev nD,
      r.2.mem ((c.tc : Thread nD τ).loc main_v2) = shapeCast S4096x128x8x8 (flat m c) shapeCasts_S4096x8192_S4096x128x8x8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v2 (Pipeline.mem_restRefs_of main_v2 (by decide) (by decide))).trans (result_final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.ReferenceIdeal.Whole

end
-- ==== Proof.lean ====
/-
  The spatial-expand layer: a kernel and its reference compute the same extended-real array.

  Both programs take x : [4096, 1024], W : [1024, 8192], b : [8192] and return (x·W + b) re-read at shape
  [4096, 128, 8, 8].  Each lays the bias out as a row [1, 8192], runs one grid of matrix-unit blocks, and re-reads the
  flat [4096, 8192] result.  They differ only in the tiling: the kernel keeps all of x resident and walks 16 column
  blocks of 512; the reference walks 16 × 16 blocks of 256 rows by 512 columns.  In both, a block's entry (p, q) is the
  full sum over the 1024 contracted positions started from zero, plus the bias entry of its column — so entry (r, s)
  of either flat result is (Σ_j x(r, j) · W(j, s)) + b(s), the same expression with the same summands in the same
  order.  Nothing is regrouped and nothing is distributed, so the equality holds on all of the extended reals and the
  precondition (finite inputs) is not used for it.

  The idealized kernel is the kernel's own text read on the extended reals (no operation was rewritten), so there is
  nothing to preserve beyond that.  Each program's termination, freedom from faults and unchanged arguments come from
  its run as a whole.
-/
import proofs.«179654_g2000606531423480_pallasbulk_506_2_alg».proof.Defs
import proofs.«179654_g2000606531423480_pallasbulk_506_2_alg».proof.Proof.Gen.Kernel
import proofs.«179654_g2000606531423480_pallasbulk_506_2_alg».proof.Proof.Gen.Kernel.Skeleton
import proofs.«179654_g2000606531423480_pallasbulk_506_2_alg».proof.Proof.Gen.Kernel.Launch
import proofs.«179654_g2000606531423480_pallasbulk_506_2_alg».proof.Proof.Gen.Kernel.Points
import proofs.«179654_g2000606531423480_pallasbulk_506_2_alg».proof.Proof.Gen.Kernel.Frame
import proofs.«179654_g2000606531423480_pallasbulk_506_2_alg».proof.Proof.Gen.KernelIdeal
import proofs.«179654_g2000606531423480_pallasbulk_506_2_alg».proof.Proof.Gen.KernelIdeal.Skeleton
import proofs.«179654_g2000606531423480_pallasbulk_506_2_alg».proof.Proof.Gen.KernelIdeal.Launch
import proofs.«179654_g2000606531423480_pallasbulk_506_2_alg».proof.Proof.Gen.KernelIdeal.Points
import proofs.«179654_g2000606531423480_pallasbulk_506_2_alg».proof.Proof.Gen.KernelIdeal.Frame
import proofs.«179654_g2000606531423480_pallasbulk_506_2_alg».proof.Proof.Gen.ReferenceIdeal
import proofs.«179654_g2000606531423480_pallasbulk_506_2_alg».proof.Proof.Gen.ReferenceIdeal.Skeleton
import proofs.«179654_g2000606531423480_pallasbulk_506_2_alg».proof.Proof.Gen.ReferenceIdeal.Launch
import proofs.«179654_g2000606531423480_pallasbulk_506_2_alg».proof.Proof.Gen.ReferenceIdeal.Points
import proofs.«179654_g2000606531423480_pallasbulk_506_2_alg».proof.Proof.Gen.ReferenceIdeal.Frame
import proofs.«179654_g2000606531423480_pallasbulk_506_2_alg».proof.Proof.Gen.Pre_finite_inputs
import proofs.«179654_g2000606531423480_pallasbulk_506_2_alg».proof.Proof.KernelWhole
import proofs.«179654_g2000606531423480_pallasbulk_506_2_alg».proof.Proof.ReferenceWhole
import Idealize.ShloMosaic.Adequacy
import Idealize.ShloMosaic.Init

noncomputable section

namespace Cert.Proof

open Idealize.ShloMosaic Idealize.SL.Sem

/-- The kernel as printed terminates without a fault and leaves its arguments as they were. -/
theorem frame_kernel : Cert.frame_Kernel := fun m ρ _ => Cert.Kernel.Gen.frame m ρ

/-- So does the kernel read on the extended reals, -/
theorem frame_kernel_ideal : Cert.frame_KernelIdeal := fun m ρ _ => Cert.KernelIdeal.Gen.frame m ρ

/-- and so does the reference read on the extended reals. -/
theorem frame_reference_ideal : Cert.frame_ReferenceIdeal := fun m ρ _ => Cert.ReferenceIdeal.Gen.frame m ρ

/-- No operation of the kernel was rewritten for the extended reals: there is no side statement to prove. -/
theorem preserves : Cert.preserves_Kernel_KernelIdeal := trivial

/-- From memories that agree on x, W and b both programs end with the result at x·W + b re-read at shape
    [4096, 128, 8, 8]: the kernel's run and the reference's run are posted at one and the same function of the
    arguments, and the arguments agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun r h c => ⟨(h c).1.trans ?_, (h c).2⟩)
    (Cert.ReferenceIdeal.Whole.run m' ρ')
  show shapeCast _ (Cert.Expand.affine _ _ _) _ = shapeCast _ (Cert.Expand.affine _ _ _) _
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
